-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x1600000 32) (main_arg2 : FVec F S64x128 .f32) (main_arg3 : FVec F S64x128 .f32) (main_arg4 : FVec F S128 .f32) (main_arg5 : FVec F S128x64 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1600000x64 : Shape := ⟨2, ![1600000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 58
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000x1, .f32⟩
  | .hbm, ⟨14, _⟩ => ⟨S_, .f32⟩
  | .hbm, ⟨15, _⟩ => ⟨S50000x1, .f32⟩
  | .hbm, ⟨16, _⟩ => ⟨S1600000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S50000x64, .f32⟩
  | .hbm, ⟨35, _⟩ => ⟨S1600000x1, .i32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S50000x128, .f32⟩
  | .hbm, ⟨52, _⟩ => ⟨S1600000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x64, .f32⟩
  | .hbm, ⟨57, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000x1_S1600000x1_S1600000x1_1_0_0_1_wf : ScatterDims.WF S50000x1 S1600000x1 S1600000x1 [1] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x128_S5000x128_1_0_0_1_n_n_wf : DotDims.WF S5000x64 S64x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000x1 : Shape := ⟨2, ![50000, 1]⟩
abbrev S50000x128 : Shape := ⟨2, ![50000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S50000x64, .f32⟩
  | .hbm, ⟨23, _⟩ => ⟨S1600000x1, .i32⟩
  | .hbm, ⟨24, _⟩ => ⟨S50000x64, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S50000x1, .f32⟩
  | .hbm, ⟨29, _⟩ => ⟨S1600000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S1x1600000, .i32⟩
  | .hbm, ⟨46, _⟩ => ⟨S1600000, .i32⟩
  | .hbm, ⟨47, _⟩ => ⟨S1x1600000, .i32⟩
  | .hbm, ⟨48, _⟩ => ⟨S1600000, .i32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S50000x128, .f32⟩
  | .hbm, ⟨60, _⟩ => ⟨S1600000x1, .i32⟩
  | .hbm, ⟨61, _⟩ => ⟨S50000x128, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S50000x1, .f32⟩
  | .hbm, ⟨66, _⟩ => ⟨S1600000x1, .i32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000x1_S1600000x1_S1600000x1_1_0_0_1_wf : ScatterDims.WF S50000x1 S1600000x1 S1600000x1 [1] [0] [0] 1
  dot_S50000x64_S64x128_S50000x128_1_0_0_1_n_n_wf : DotDims.WF S50000x64 S64x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with its result array named.

  The program is two kernel launches among host operations.  The buffer contents at each boundary form a fold
  from the launch memory: after the first stretch of host operations, after the first launch's write-backs,
  after the second stretch, after the second launch's write-backs.  Every weakly fair execution terminates
  without a fault in a state whose unscoped buffers hold that fold's last stage; read at the result buffer and
  at the eight arguments this is the statement below.
-/
import proofs.«145076_j19061064859834_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v39) = V4 m ρ c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Body0.lean ====
/-
  The first call's body at an index.

  At a grid point the body loads a 5000-row block `A` of the mean-aggregated features, the matching block `X` of the
  node features, both 64×128 weight matrices and the bias row, and stores
      max(A·Wl + X·Wr + bias, 0).
  On the extended reals a change of float format is the identity and a matrix product into a zero accumulator is
  the plain sum over the contracted axis, so the stored entry (p, q) is
      max(Σₖ A(p, k)·Wl(k, q) + Σₖ X(p, k)·Wr(k, q) + bias(0, q), 0).
-/
import proofs.«145076_j19061064859834_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body0

open Idealize.ShloMosaic Idealize.ShloMosaic.ValueIdx Cert.KernelIdeal Cert.KernelIdeal.Gen
open scoped BigOperators

/-- The left operand of the product is read at the output's row: coordinate 0 of its index is the output's. -/
theorem lhs_row (i : S5000x128.Idx) (κ : (dot_S5000x64_S64x128_S5000x128_1_0_0_1_n_n).contr.Idx) :
    ((dot_S5000x64_S64x128_S5000x128_1_0_0_1_n_n).lhsIdx i κ 0).val = (i 0).val := by
  unfold DotDims.lhsIdx
  rw [dif_neg (show ¬(0 : Fin S5000x64.rank) ∈ (dot_S5000x64_S64x128_S5000x128_1_0_0_1_n_n).lhsBatch by decide),
    dif_pos (show (0 : Fin S5000x64.rank) ∈ (dot_S5000x64_S64x128_S5000x128_1_0_0_1_n_n).lhsNonContracting by decide)]
  rfl

/-- The right operand is read at the output's column: coordinate 1 of its index is the output's. -/
theorem rhs_col (i : S5000x128.Idx) (κ : (dot_S5000x64_S64x128_S5000x128_1_0_0_1_n_n).contr.Idx) :
    ((dot_S5000x64_S64x128_S5000x128_1_0_0_1_n_n).rhsIdx i κ 1).val = (i 1).val := by
  unfold DotDims.rhsIdx
  rw [dif_neg (show ¬(1 : Fin S64x128.rank) ∈ (dot_S5000x64_S64x128_S5000x128_1_0_0_1_n_n).rhsBatch by decide),
    dif_pos (show (1 : Fin S64x128.rank) ∈ (dot_S5000x64_S64x128_S5000x128_1_0_0_1_n_n).rhsNonContracting by decide)]
  rfl

/-- A [5000, 64] × [64, 128] product into the zero accumulator, at entry (p, q): the sum over the 64 contracted
    positions of row p of the left operand against column q of the right one. -/
theorem product_apply {φ₁ φ₂ : FTy} (l : FVec Ideal S5000x64 φ₁) (r : FVec Ideal S64x128 φ₂) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) := by
  refine (Ideal.matmul_constant_zero_apply dot_S5000x64_S64x128_S5000x128_1_0_0_1_n_n none l r (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : (dot_S5000x64_S64x128_S5000x128_1_0_0_1_n_n).lhsIdx (ix2 p q)
      ((contrEquiv1 dot_S5000x64_S64x128_S5000x128_1_0_0_1_n_n 64 rfl rfl).symm k) = ix2 p k :=
    funext fun a => Fin.ext (by
      match a with
      | ⟨0, _⟩ => exact lhs_row _ _
      | ⟨1, _⟩ => exact ((dot_S5000x64_S64x128_S5000x128_1_0_0_1_n_n).lhsIdx_val_of_single rfl _ _).trans hk)
  have er : (dot_S5000x64_S64x128_S5000x128_1_0_0_1_n_n).rhsIdx (ix2 p q)
      ((contrEquiv1 dot_S5000x64_S64x128_S5000x128_1_0_0_1_n_n 64 rfl rfl).symm k) = ix2 k q :=
    funext fun a => Fin.ext (by
      match a with
      | ⟨0, _⟩ => exact ((dot_S5000x64_S64x128_S5000x128_1_0_0_1_n_n).rhsIdx_val_of_single rfl _ _).trans hk
      | ⟨1, _⟩ => exact rhs_col _ _)
  rw [el, er]

/-- The bias row broadcast down the block's 5000 rows, at entry (p, q), is the row's entry q. -/
theorem bias_apply (v : FVec Ideal S1x128 .f32) (p : Fin 5000) (q : Fin 128) :
    broadcastTo S5000x128 (shapeCast S1x128 v shapeCasts_S1x128_S1x128) broadcasts_S1x128_S5000x128 (ix2 p q)
      = v (ix2 0 q) := by
  rw [shapeCast_self]
  exact broadcastTo_apply v broadcasts_S1x128_S5000x128 (ix2 p q) (ix2 0 q) (fun a => by
    match a with
    | ⟨0, _⟩ => rfl
    | ⟨1, _⟩ => rfl)

/-- The stored entry (p, q) of the first call's body. -/
theorem payload_apply (a x : Vec Ideal S5000x64 .f32) (wl wr : Vec Ideal S64x128 .f32) (b : Vec Ideal S1x128 .f32)
    (p : Fin 5000) (q : Fin 128) :
    k0_pay1 (F := Ideal) a x wl wr b (ix2 p q)
      = max ((∑ k : Fin 64, a (ix2 p k) * wl (ix2 k q)) + (∑ k : Fin 64, x (ix2 p k) * wr (ix2 k q)) + b (ix2 0 q)) 0 := by
  unfold k0_pay1
  rw [maximumf_apply, addf_apply, addf_apply, product_apply, product_apply, bias_apply, broadcast_apply]
  simp only [shapeCast_self, truncf_apply]
  show max _ (Ideal.ofBits .f32 0x00000000#32) = _
  rw [Ideal.ofBits_zero_f32]

end Cert.KernelIdeal.Body0

end
-- ==== Proof.SageSpec.lean ====
/-
  The mathematics of the two-layer mean-aggregation network, stated once, over the literal shapes.

  For a node `i` let `a(i, ·)` be the mean of its in-neighbours' feature rows and `f(i, ·)` its own row.  One layer is
      dense(a, f)(i, j) = Σₖ a(i, k) · Wl(k, j) + Σₖ f(i, k) · Wr(k, j) + b(j),
  the first layer followed by `max(·, 0)`.  Both programs compute exactly this; they differ only in how the mean
  is formed from the neighbour sum `s` and the in-degree `n`: one multiplies by `1 / max(n, 1)`, the other divides
  by `max(n, 1)`.  On the extended reals `x / y` is `x · y⁻¹` whenever `y ≠ 0`, and `max(n, 1) ≥ 1` is never zero,
  so `s · (1 / max(n, 1)) = s · (1 · max(n, 1)⁻¹) = s / max(n, 1)` for every `s` and `n`, finite or not.
-/
import Idealize.ShloMosaic.PureOps.Ideal
import Idealize.ShloMosaic.PureOps.Ideal.Laws
import Idealize.ShloMosaic.Lib.ValueIdx

noncomputable section

namespace Cert.SageSpec

open Idealize.ShloMosaic Idealize.ShloMosaic.ValueIdx
open scoped BigOperators

/-- The word of `1.0` denotes the real number one. -/
theorem word_one : Ideal.ofBits .f32 0x3F800000#32 = 1 := by
  simp [Ideal.ofBits, Ideal.ieee]
  rw [← EReal.coe_mul, ← EReal.coe_one, EReal.coe_eq_coe_iff]
  norm_num

/-- Multiplying by the reciprocal of `max(n, 1)` is dividing by it: the divisor is at least one, so never zero,
    and off zero the quotient is the product with the inverse. -/
theorem mul_recip_eq_div (s n : EReal) : s * Ideal.div 1 (max n 1) = Ideal.div s (max n 1) := by
  have h : max n 1 ≠ 0 := ne_of_gt (lt_of_lt_of_le zero_lt_one (le_max_right n 1))
  rw [Ideal.div, if_neg h, Ideal.div, if_neg h, one_mul]

/-- The first layer before its rectifier: 64 input features, 128 output features, 50000 nodes. -/
def dense1 (a f : FVec Ideal ⟨2, ![50000, 64]⟩ .f32) (wl wr : FVec Ideal ⟨2, ![64, 128]⟩ .f32)
    (b : Fin 128 → EReal) : FVec Ideal ⟨2, ![50000, 128]⟩ .f32 := fun i =>
  (∑ k : Fin 64, a (ix2 (i 0) k) * wl (ix2 k (i 1))) + (∑ k : Fin 64, f (ix2 (i 0) k) * wr (ix2 k (i 1))) + b (i 1)

/-- The hidden features: the first layer rectified. -/
def hidden (a f : FVec Ideal ⟨2, ![50000, 64]⟩ .f32) (wl wr : FVec Ideal ⟨2, ![64, 128]⟩ .f32)
    (b : Fin 128 → EReal) : FVec Ideal ⟨2, ![50000, 128]⟩ .f32 := fun i =>
  max (dense1 a f wl wr b i) 0

/-- The second layer: 128 input features, 64 output features, no rectifier. -/
def dense2 (a f : FVec Ideal ⟨2, ![50000, 128]⟩ .f32) (wl wr : FVec Ideal ⟨2, ![128, 64]⟩ .f32)
    (b : Fin 64 → EReal) : FVec Ideal ⟨2, ![50000, 64]⟩ .f32 := fun i =>
  (∑ k : Fin 128, a (ix2 (i 0) k) * wl (ix2 k (i 1))) + (∑ k : Fin 128, f (ix2 (i 0) k) * wr (ix2 k (i 1))) + b (i 1)

end Cert.SageSpec

end
-- ==== Proof.Region0.lean ====
/-
  The first call, from blocks to the whole array.

  The grid has ten points; point `t` reads rows `5000·t … 5000·t + 4999` of the aggregated features and of the node
  features, all of both weight matrices and of the bias row, and writes back rows `5000·t … 5000·t + 4999` of the
  result.  An entry of a written block depends only on its own row of the two row-blocked inputs, so every block
  is the restriction of one function of the whole arrays — the rectified first layer — and the ten blocks cover
  all 50000 rows.
-/
import proofs.«145076_j19061064859834_1_alg».proof.Proof.Gen.KernelIdeal.Frame
import proofs.«145076_j19061064859834_1_alg».proof.Proof.Body0
import proofs.«145076_j19061064859834_1_alg».proof.Proof.SageSpec

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two row-blocked inputs and the output sit at block row `t`, block
    column 0; the weights and the bias row are the one block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the result array holds after the call, as a function of the arrays the call finds: the rectified first
    layer of the aggregated features, the node features, the weights and the bias row. -/
def result (c : Dev nD) : FVec Ideal S50000x128 .f32 :=
  SageSpec.hidden (V c main_v23) (V c main_arg0) (V c main_arg2) (V c main_arg3)
    (fun q => (V c main_v24 : S1x128.Idx → EReal) (ix2 0 q))

/-- Entry (p, k) of point `t`'s block of the aggregated features is row `5000·t + p` of the array. -/
theorem agg_block (c : Dev nD) (t : Fin cfg0.N) (p : Fin 5000) (k : Fin 64) (r : Fin 50000) (hr : r.val = t.val * 5000 + p.val) :
    (iblk0 V c 0 t : Vec Ideal S5000x64 .f32) (ix2 p k) = (V c main_v23 : S50000x64.Idx → EReal) (ix2 r k) := by
  obtain ⟨e0, e1, -⟩ := index_facts t
  show (V c main_v23 : S50000x64.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Entry (p, k) of point `t`'s block of the node features is row `5000·t + p` of the array. -/
theorem feat_block (c : Dev nD) (t : Fin cfg0.N) (p : Fin 5000) (k : Fin 64) (r : Fin 50000) (hr : r.val = t.val * 5000 + p.val) :
    (iblk0 V c 1 t : Vec Ideal S5000x64 .f32) (ix2 p k) = (V c main_arg0 : S50000x64.Idx → EReal) (ix2 r k) := by
  obtain ⟨-, -, e0, e1, -⟩ := index_facts t
  show (V c main_arg0 : S50000x64.Idx → EReal) (((cfg0.win 1).blk t).view.emb (ix2 p k)) = _
  refine congrArg _ (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- The left weights' block at every point is the whole matrix. -/
theorem wl_block (c : Dev nD) (t : Fin cfg0.N) (k : Fin 64) (q : Fin 128) :
    (iblk0 V c 2 t : Vec Ideal S64x128 .f32) (ix2 k q) = (V c main_arg2 : S64x128.Idx → EReal) (ix2 k q) := by
  obtain ⟨-, -, -, -, e0, e1, -⟩ := index_facts t
  show (V c main_arg2 : S64x128.Idx → EReal) (((cfg0.win 2).blk t).view.emb (ix2 k q)) = _
  refine congrArg _ (funext fun a => Fin.ext ?_)
  match a with
  | ⟨0, _⟩ => show win0_2.index t (0 : Fin 2) * 64 + 1 * k.val = k.val; omega
  | ⟨1, _⟩ => show win0_2.index t (1 : Fin 2) * 128 + 1 * q.val = q.val; omega

/-- The right weights' block at every point is the whole matrix. -/
theorem wr_block (c : Dev nD) (t : Fin cfg0.N) (k : Fin 64) (q : Fin 128) :
    (iblk0 V c 3 t : Vec Ideal S64x128 .f32) (ix2 k q) = (V c main_arg3 : S64x128.Idx → EReal) (ix2 k q) := by
  obtain ⟨-, -, -, -, -, -, e0, e1, -⟩ := index_facts t
  show (V c main_arg3 : S64x128.Idx → EReal) (((cfg0.win 3).blk t).view.emb (ix2 k q)) = _
  refine congrArg _ (funext fun a => Fin.ext ?_)
  match a with
  | ⟨0, _⟩ => show win0_3.index t (0 : Fin 2) * 64 + 1 * k.val = k.val; omega
  | ⟨1, _⟩ => show win0_3.index t (1 : Fin 2) * 128 + 1 * q.val = q.val; omega

/-- The bias row's block at every point is the whole row. -/
theorem bias_block (c : Dev nD) (t : Fin cfg0.N) (q : Fin 128) :
    (iblk0 V c 4 t : Vec Ideal S1x128 .f32) (ix2 0 q) = (V c main_v24 : S1x128.Idx → EReal) (ix2 0 q) := by
  obtain ⟨-, -, -, -, -, -, -, -, e0, e1, -⟩ := index_facts t
  show (V c main_v24 : S1x128.Idx → EReal) (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- What point `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  obtain ⟨-, -, -, -, -, -, -, -, -, -, o0, o1⟩ := index_facts t
  have ht : t.val < 10 := (show t.val < grid0.N from t.isLt).trans_eq N_0
  funext j
  obtain ⟨p, q, rfl⟩ : ∃ (p : Fin 5000) (q : Fin 128), j = ix2 p q := ⟨j 0, j 1, eq_ix2 j⟩
  have hr : t.val * 5000 + p.val < 50000 := by have := p.isLt; omega
  have he : ((cfg0.win 5).blk t).view.emb (ix2 p q) = (ix2 ⟨t.val * 5000 + p.val, hr⟩ q : S50000x128.Idx) :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  show k0_pay1 (F := Ideal) (iblk0 V c 0 t) (iblk0 V c 1 t) (iblk0 V c 2 t) (iblk0 V c 3 t) (iblk0 V c 4 t) (ix2 p q)
    = result V c (((cfg0.win 5).blk t).view.emb (ix2 p q))
  rw [he]
  refine (Body0.payload_apply (iblk0 V c 0 t) (iblk0 V c 1 t) (iblk0 V c 2 t) (iblk0 V c 3 t) (iblk0 V c 4 t) p q).trans ?_
  unfold result SageSpec.hidden SageSpec.dense1
  rw [bias_block V c t q]
  refine congrArg (fun s => max s 0) (congrArg₂ (· + ·) (congrArg₂ (· + ·) ?_ ?_) rfl)
  · exact Finset.sum_congr rfl fun k _ => by rw [agg_block V c t p k ⟨t.val * 5000 + p.val, hr⟩ rfl, wl_block V c t k q]
  · exact Finset.sum_congr rfl fun k _ => by rw [feat_block V c t p k ⟨t.val * 5000 + p.val, hr⟩ rfl, wr_block V c t k q]

/-- An index of the result array lies in point `t`'s block iff each coordinate is in the block's range. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every row lies in the block of the point `row / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, o0, o1⟩ := index_facts t
  have ht : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the call is the rectified first layer of the arrays the call finds. -/
theorem final (c : Dev nD) : (dat0 V c).arrAt 5 cfg0.N = result V c :=
  (dat0 V c).arrAt_eq_of_cover 5 (result V c) (fun t _ => flushed_eq V c t) cover

end Cert.KernelIdeal.Region0

end
-- ==== Proof.Body1.lean ====
/-
  The second call's body at an index.

  At a grid point the body loads a 5000-row block `A` of the mean-aggregated hidden features, the matching block `H`
  of the hidden features, both 128×64 weight matrices and the bias row, and stores `A·Wl + H·Wr + bias`.  On the
  extended reals the stored entry (p, q) is
      Σₖ A(p, k)·Wl(k, q) + Σₖ H(p, k)·Wr(k, q) + bias(0, q),
  the sums over the 128 contracted positions.
-/
import proofs.«145076_j19061064859834_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body1

open Idealize.ShloMosaic Idealize.ShloMosaic.ValueIdx Cert.KernelIdeal Cert.KernelIdeal.Gen
open scoped BigOperators

/-- The left operand of the product is read at the output's row: coordinate 0 of its index is the output's. -/
theorem lhs_row (i : S5000x64.Idx) (κ : (dot_S5000x128_S128x64_S5000x64_1_0_0_1_n_n).contr.Idx) :
    ((dot_S5000x128_S128x64_S5000x64_1_0_0_1_n_n).lhsIdx i κ 0).val = (i 0).val := by
  unfold DotDims.lhsIdx
  rw [dif_neg (show ¬(0 : Fin S5000x128.rank) ∈ (dot_S5000x128_S128x64_S5000x64_1_0_0_1_n_n).lhsBatch by decide),
    dif_pos (show (0 : Fin S5000x128.rank) ∈ (dot_S5000x128_S128x64_S5000x64_1_0_0_1_n_n).lhsNonContracting by decide)]
  rfl

/-- The right operand is read at the output's column: coordinate 1 of its index is the output's. -/
theorem rhs_col (i : S5000x64.Idx) (κ : (dot_S5000x128_S128x64_S5000x64_1_0_0_1_n_n).contr.Idx) :
    ((dot_S5000x128_S128x64_S5000x64_1_0_0_1_n_n).rhsIdx i κ 1).val = (i 1).val := by
  unfold DotDims.rhsIdx
  rw [dif_neg (show ¬(1 : Fin S128x64.rank) ∈ (dot_S5000x128_S128x64_S5000x64_1_0_0_1_n_n).rhsBatch by decide),
    dif_pos (show (1 : Fin S128x64.rank) ∈ (dot_S5000x128_S128x64_S5000x64_1_0_0_1_n_n).rhsNonContracting by decide)]
  rfl

/-- A [5000, 128] × [128, 64] product into the zero accumulator, at entry (p, q): the sum over the 128 contracted
    positions of row p of the left operand against column q of the right one. -/
theorem product_apply {φ₁ φ₂ : FTy} (l : FVec Ideal S5000x128 φ₁) (r : FVec Ideal S128x64 φ₂) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : (dot_S5000x128_S128x64_S5000x64_1_0_0_1_n_n).lhsIdx (ix2 p q)
      ((contrEquiv1 dot_S5000x128_S128x64_S5000x64_1_0_0_1_n_n 128 rfl rfl).symm k) = ix2 p k :=
    funext fun a => Fin.ext (by
      match a with
      | ⟨0, _⟩ => exact lhs_row _ _
      | ⟨1, _⟩ => exact ((dot_S5000x128_S128x64_S5000x64_1_0_0_1_n_n).lhsIdx_val_of_single rfl _ _).trans hk)
  have er : (dot_S5000x128_S128x64_S5000x64_1_0_0_1_n_n).rhsIdx (ix2 p q)
      ((contrEquiv1 dot_S5000x128_S128x64_S5000x64_1_0_0_1_n_n 128 rfl rfl).symm k) = ix2 k q :=
    funext fun a => Fin.ext (by
      match a with
      | ⟨0, _⟩ => exact ((dot_S5000x128_S128x64_S5000x64_1_0_0_1_n_n).rhsIdx_val_of_single rfl _ _).trans hk
      | ⟨1, _⟩ => exact rhs_col _ _)
  rw [el, er]

/-- The bias row broadcast down the block's 5000 rows, at entry (p, q), is the row's entry q. -/
theorem bias_apply (v : FVec Ideal S1x64 .f32) (p : Fin 5000) (q : Fin 64) :
    broadcastTo S5000x64 (shapeCast S1x64 v shapeCasts_S1x64_S1x64) broadcasts_S1x64_S5000x64 (ix2 p q)
      = v (ix2 0 q) := by
  rw [shapeCast_self]
  exact broadcastTo_apply v broadcasts_S1x64_S5000x64 (ix2 p q) (ix2 0 q) (fun a => by
    match a with
    | ⟨0, _⟩ => rfl
    | ⟨1, _⟩ => rfl)

/-- The stored entry (p, q) of the second call's body. -/
theorem payload_apply (a h : Vec Ideal S5000x128 .f32) (wl wr : Vec Ideal S128x64 .f32) (b : Vec Ideal S1x64 .f32)
    (p : Fin 5000) (q : Fin 64) :
    k1_pay1 (F := Ideal) a h wl wr b (ix2 p q)
      = (∑ k : Fin 128, a (ix2 p k) * wl (ix2 k q)) + (∑ k : Fin 128, h (ix2 p k) * wr (ix2 k q)) + b (ix2 0 q) := by
  unfold k1_pay1
  rw [addf_apply, addf_apply, product_apply, product_apply, bias_apply]
  simp only [shapeCast_self, truncf_apply]

end Cert.KernelIdeal.Body1

end
-- ==== Proof.Region1.lean ====
/-
  The second call, from blocks to the whole array.

  Again ten points; point `t` reads rows `5000·t … 5000·t + 4999` of the aggregated hidden features and of the hidden
  features, all of both weight matrices and of the bias row, and writes back the same rows of the result.  Every
  written block is the restriction of one function of the whole arrays — the second layer — and the ten blocks
  cover all 50000 rows.
-/
import proofs.«145076_j19061064859834_1_alg».proof.Proof.Gen.KernelIdeal.Frame
import proofs.«145076_j19061064859834_1_alg».proof.Proof.Body1
import proofs.«145076_j19061064859834_1_alg».proof.Proof.SageSpec

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two row-blocked inputs and the output sit at block row `t`, block
    column 0; the weights and the bias row are the one block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the result array holds after the call, as a function of the arrays the call finds: the second layer of
    the aggregated hidden features, the hidden features, the weights and the bias row. -/
def result (c : Dev nD) : FVec Ideal S50000x64 .f32 :=
  SageSpec.dense2 (V c main_v37) (V c main_v25) (V c main_arg5) (V c main_arg6)
    (fun q => (V c main_v38 : S1x64.Idx → EReal) (ix2 0 q))

/-- Entry (p, k) of point `t`'s block of the aggregated hidden features is row `5000·t + p` of the array. -/
theorem agg_block (c : Dev nD) (t : Fin cfg1.N) (p : Fin 5000) (k : Fin 128) (r : Fin 50000) (hr : r.val = t.val * 5000 + p.val) :
    (iblk1 V c 0 t : Vec Ideal S5000x128 .f32) (ix2 p k) = (V c main_v37 : S50000x128.Idx → EReal) (ix2 r k) := by
  obtain ⟨e0, e1, -⟩ := index_facts t
  show (V c main_v37 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Entry (p, k) of point `t`'s block of the hidden features is row `5000·t + p` of the array. -/
theorem feat_block (c : Dev nD) (t : Fin cfg1.N) (p : Fin 5000) (k : Fin 128) (r : Fin 50000) (hr : r.val = t.val * 5000 + p.val) :
    (iblk1 V c 1 t : Vec Ideal S5000x128 .f32) (ix2 p k) = (V c main_v25 : S50000x128.Idx → EReal) (ix2 r k) := by
  obtain ⟨-, -, e0, e1, -⟩ := index_facts t
  show (V c main_v25 : S50000x128.Idx → EReal) (((cfg1.win 1).blk t).view.emb (ix2 p k)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The left weights' block at every point is the whole matrix. -/
theorem wl_block (c : Dev nD) (t : Fin cfg1.N) (k : Fin 128) (q : Fin 64) :
    (iblk1 V c 2 t : Vec Ideal S128x64 .f32) (ix2 k q) = (V c main_arg5 : S128x64.Idx → EReal) (ix2 k q) := by
  obtain ⟨-, -, -, -, e0, e1, -⟩ := index_facts t
  show (V c main_arg5 : S128x64.Idx → EReal) (((cfg1.win 2).blk t).view.emb (ix2 k q)) = _
  refine congrArg _ (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- The right weights' block at every point is the whole matrix. -/
theorem wr_block (c : Dev nD) (t : Fin cfg1.N) (k : Fin 128) (q : Fin 64) :
    (iblk1 V c 3 t : Vec Ideal S128x64 .f32) (ix2 k q) = (V c main_arg6 : S128x64.Idx → EReal) (ix2 k q) := by
  obtain ⟨-, -, -, -, -, -, e0, e1, -⟩ := index_facts t
  show (V c main_arg6 : S128x64.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- The bias row's block at every point is the whole row. -/
theorem bias_block (c : Dev nD) (t : Fin cfg1.N) (q : Fin 64) :
    (iblk1 V c 4 t : Vec Ideal S1x64 .f32) (ix2 0 q) = (V c main_v38 : S1x64.Idx → EReal) (ix2 0 q) := by
  obtain ⟨-, -, -, -, -, -, -, -, e0, e1, -⟩ := index_facts t
  show (V c main_v38 : S1x64.Idx → EReal) (((cfg1.win 4).blk t).view.emb (ix2 0 q)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨-, -, -, -, -, -, -, -, -, -, o0, o1⟩ := index_facts t
  have ht : t.val < 10 := (show t.val < grid1.N from t.isLt).trans_eq N_1
  funext j
  obtain ⟨p, q, rfl⟩ : ∃ (p : Fin 5000) (q : Fin 64), j = ix2 p q := ⟨j 0, j 1, eq_ix2 j⟩
  have hr : t.val * 5000 + p.val < 50000 := by have := p.isLt; omega
  have he : ((cfg1.win 5).blk t).view.emb (ix2 p q) = (ix2 ⟨t.val * 5000 + p.val, hr⟩ q : S50000x64.Idx) :=
    funext fun a => Fin.ext (by
      match a with
      | ⟨0, _⟩ => show win1_5.index t (0 : Fin 2) * 5000 + 1 * p.val = t.val * 5000 + p.val; omega
      | ⟨1, _⟩ => show win1_5.index t (1 : Fin 2) * 64 + 1 * q.val = q.val; omega)
  show k1_pay1 (F := Ideal) (iblk1 V c 0 t) (iblk1 V c 1 t) (iblk1 V c 2 t) (iblk1 V c 3 t) (iblk1 V c 4 t) (ix2 p q)
    = result V c (((cfg1.win 5).blk t).view.emb (ix2 p q))
  rw [he]
  refine (Body1.payload_apply (iblk1 V c 0 t) (iblk1 V c 1 t) (iblk1 V c 2 t) (iblk1 V c 3 t) (iblk1 V c 4 t) p q).trans ?_
  unfold result SageSpec.dense2
  rw [bias_block V c t q]
  refine congrArg₂ (· + ·) (congrArg₂ (· + ·) ?_ ?_) rfl
  · exact Finset.sum_congr rfl fun k _ => by rw [agg_block V c t p k ⟨t.val * 5000 + p.val, hr⟩ rfl, wl_block V c t k q]
  · exact Finset.sum_congr rfl fun k _ => by rw [feat_block V c t p k ⟨t.val * 5000 + p.val, hr⟩ rfl, wr_block V c t k q]

/-- An index of the result array lies in point `t`'s block iff each coordinate is in the block's range. -/
theorem mem_block (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- Every row lies in the block of the point `row / 5000`. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, -, o0, o1⟩ := index_facts t
  have ht : t.val = (i 0).val / 5000 := rfl
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The result array after the call is the second layer of the arrays the call finds. -/
theorem final (c : Dev nD) : (dat1 V c).arrAt 5 cfg1.N = result V c :=
  (dat1 V c).arrAt_eq_of_cover 5 (result V c) (fun t _ => flushed_eq V c t) cover

end Cert.KernelIdeal.Region1

end
-- ==== Proof.HostK.lean ====
/-
  The host operations of the kernel's program, read as functions of the arguments.

  From the edge list `e` (two rows: sources and destinations) the program forms the source column (negative entries
  wrapped by 50000) and the destination column; the in-degree `deg` of every node by adding ones at the
  destinations; `1 / max(deg, 1)`; and for a feature array `f` the neighbour sum: rows of `f` gathered at the
  sources and added at the destinations.  The mean-aggregated features it hands to each call are the neighbour sum
  times the broadcast reciprocal.  The gather and the scatter-add are never opened: they enter only as the same
  functions of the same columns wherever they occur.
-/
import proofs.«145076_j19061064859834_1_alg».proof.Proof.Gen.KernelIdeal.Frame
import proofs.«145076_j19061064859834_1_alg».proof.Proof.Region0
import Idealize.ShloMosaic.Lib.StableHlo.Run
import Idealize.ShloMosaic.PureOps.Ideal

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

/-! ## The pieces, as functions of the edge list and a feature array -/

/-- The sources, one per edge. -/
def srcRow (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destinations, one per edge. -/
def dstRow (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The sources as the gather's index column: a negative source is wrapped by adding 50000. -/
def srcCol (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 50000#32)))
      (srcRow e))

/-- The destinations as the scatter's index column. -/
def dstCol (e : (⟨S2x1600000, .i32⟩ : BufTy).Contents (Elt Ideal)) : (⟨S1600000x1, .i32⟩ : BufTy).Contents (Elt Ideal) :=
  broadcastInDim S1600000x1 ![0] bcast_S1600000_S1600000x1_0 (dstRow e)

/-- The in-degree of every node: a one added at each edge's destination. -/
def degree (e : (⟨S2x1600000, .i32⟩ : BufTy).Contents (Elt Ideal)) : FVec Ideal S50000x1 .f32 :=
  Host.scatterAdd scatter_S50000x1_S1600000x1_S1600000x1_1_0_0_1
    (broadcastInDim S50000x1 ![] bcast_S_S50000x1 (constant (F := Ideal) S_ .f32 0x00000000#32))
    (dstCol e)
    (broadcastInDim S1600000x1 ![] bcast_S_S1600000x1 (constant (F := Ideal) S_ .f32 0x3F800000#32))

/-- `1 / max(deg, 1)`, one per node. -/
def recipDegree (e : (⟨S2x1600000, .i32⟩ : BufTy).Contents (Elt Ideal)) : FVec Ideal S50000x1 .f32 :=
  Host.divf (F := Ideal) (broadcastInDim S50000x1 ![] bcast_S_S50000x1 (constant (F := Ideal) S_ .f32 0x3F800000#32))
    (maximumf (degree e) (broadcastInDim S50000x1 ![] bcast_S_S50000x1 (constant (F := Ideal) S_ .f32 0x3F800000#32)))

/-- The neighbour sum of 64-wide features. -/
def nbrSum64 (f : FVec Ideal S50000x64 .f32) (e : (⟨S2x1600000, .i32⟩ : BufTy).Contents (Elt Ideal)) : FVec Ideal S50000x64 .f32 :=
  Host.scatterAdd scatter_S50000x64_S1600000x1_S1600000x64_1_0_0_1
    (broadcastInDim S50000x64 ![] bcast_S_S50000x64 (constant (F := Ideal) S_ .f32 0x00000000#32))
    (dstCol e)
    (Host.gather gather_S50000x64_S1600000x1_S1600000x64_1_0_n_n_0_1_164 f (srcCol e))

/-- The neighbour sum of 128-wide features. -/
def nbrSum128 (f : FVec Ideal S50000x128 .f32) (e : (⟨S2x1600000, .i32⟩ : BufTy).Contents (Elt Ideal)) : FVec Ideal S50000x128 .f32 :=
  Host.scatterAdd scatter_S50000x128_S1600000x1_S1600000x128_1_0_0_1
    (broadcastInDim S50000x128 ![] bcast_S_S50000x128 (constant (F := Ideal) S_ .f32 0x00000000#32))
    (dstCol e)
    (Host.gather gather_S50000x128_S1600000x1_S1600000x128_1_0_n_n_0_1_1128 f (srcCol e))

/-- The mean-aggregated 64-wide features as this program forms them: the sum times the reciprocal. -/
def mean64 (f : FVec Ideal S50000x64 .f32) (e : (⟨S2x1600000, .i32⟩ : BufTy).Contents (Elt Ideal)) : FVec Ideal S50000x64 .f32 :=
  mulf (nbrSum64 f e) (broadcastInDim S50000x64 ![0, 1] bcast_S50000x1_S50000x64_0_1 (recipDegree e))

/-- The mean-aggregated 128-wide features as this program forms them. -/
def mean128 (f : FVec Ideal S50000x128 .f32) (e : (⟨S2x1600000, .i32⟩ : BufTy).Contents (Elt Ideal)) : FVec Ideal S50000x128 .f32 :=
  mulf (nbrSum128 f e) (broadcastInDim S50000x128 ![0, 1] bcast_S50000x1_S50000x128_0_1 (recipDegree e))

/-! ## What the first call finds -/

variable (m : (ℓ : Loc nD τ sig) → Buf (Elt Ideal) ℓ) (ρ : Dev nD → PrngReg)

set_option maxHeartbeats 8000000 in
theorem agg1_eq (c : Dev nD) :
    (V1 m ρ c main_v23 : S50000x64.Idx → EReal) = mean64 (m ((c.tc : Thread nD τ).loc main_arg0)) (m ((c.tc : Thread nD τ).loc main_arg1)) := by
  show StableHlo.after hostOps0 (W0 m ρ c) (Proc.devRef .tc main_v23) = _
  after_results_simp
  rfl

set_option maxHeartbeats 8000000 in
theorem feat1_eq (c : Dev nD) : (V1 m ρ c main_arg0 : S50000x64.Idx → EReal) = m ((c.tc : Thread nD τ).loc main_arg0) := by
  show StableHlo.after hostOps0 (W0 m ρ c) (Proc.devRef .tc main_arg0) = _
  after_results_simp

set_option maxHeartbeats 8000000 in
theorem wl1_eq (c : Dev nD) : (V1 m ρ c main_arg2 : S64x128.Idx → EReal) = m ((c.tc : Thread nD τ).loc main_arg2) := by
  show StableHlo.after hostOps0 (W0 m ρ c) (Proc.devRef .tc main_arg2) = _
  after_results_simp

set_option maxHeartbeats 8000000 in
theorem wr1_eq (c : Dev nD) : (V1 m ρ c main_arg3 : S64x128.Idx → EReal) = m ((c.tc : Thread nD τ).loc main_arg3) := by
  show StableHlo.after hostOps0 (W0 m ρ c) (Proc.devRef .tc main_arg3) = _
  after_results_simp

set_option maxHeartbeats 8000000 in
theorem bias1_eq (c : Dev nD) :
    (V1 m ρ c main_v24 : S1x128.Idx → EReal) = shapeCast S1x128 (m ((c.tc : Thread nD τ).loc main_arg4)) shapeCasts_S128_S1x128 := by
  show StableHlo.after hostOps0 (W0 m ρ c) (Proc.devRef .tc main_v24) = _
  after_results_simp
  rfl

/-! ## What the first stretch leaves for the second -/

set_option maxHeartbeats 8000000 in
theorem src_eq (c : Dev nD) : W1 m ρ c (Proc.devRef .tc main_v1) = srcRow (m ((c.tc : Thread nD τ).loc main_arg1)) := by
  show StableHlo.after hostOps0 (W0 m ρ c) (Proc.devRef .tc main_v1) = _
  after_results_simp
  rfl

set_option maxHeartbeats 8000000 in
theorem dst_eq (c : Dev nD) : W1 m ρ c (Proc.devRef .tc main_v3) = dstRow (m ((c.tc : Thread nD τ).loc main_arg1)) := by
  show StableHlo.after hostOps0 (W0 m ρ c) (Proc.devRef .tc main_v3) = _
  after_results_simp
  rfl

set_option maxHeartbeats 8000000 in
theorem recip_eq (c : Dev nD) : W1 m ρ c (Proc.devRef .tc main_v11) = recipDegree (m ((c.tc : Thread nD τ).loc main_arg1)) := by
  show StableHlo.after hostOps0 (W0 m ρ c) (Proc.devRef .tc main_v11) = _
  after_results_simp
  rfl

set_option maxHeartbeats 8000000 in
theorem wl2_w1 (c : Dev nD) : W1 m ρ c (Proc.devRef .tc main_arg5) = m ((c.tc : Thread nD τ).loc main_arg5) := by
  show StableHlo.after hostOps0 (W0 m ρ c) (Proc.devRef .tc main_arg5) = _
  after_results_simp

set_option maxHeartbeats 8000000 in
theorem wr2_w1 (c : Dev nD) : W1 m ρ c (Proc.devRef .tc main_arg6) = m ((c.tc : Thread nD τ).loc main_arg6) := by
  show StableHlo.after hostOps0 (W0 m ρ c) (Proc.devRef .tc main_arg6) = _
  after_results_simp

set_option maxHeartbeats 8000000 in
theorem bias2_w1 (c : Dev nD) : W1 m ρ c (Proc.devRef .tc main_arg7) = m ((c.tc : Thread nD τ).loc main_arg7) := by
  show StableHlo.after hostOps0 (W0 m ρ c) (Proc.devRef .tc main_arg7) = _
  after_results_simp

end Cert.KernelIdeal.HostSide

end
-- ==== Proof.HostK2.lean ====
/-
  The kernel's result as one function of the arguments.

  The second stretch of host operations reads the first call's result `H` (the hidden features), the source and
  destination rows and `1 / max(deg, 1)` left by the first stretch, and forms the mean-aggregated hidden features
  the same way as before.  Chaining the two calls' arrays through the two stretches: the result buffer ends holding
  the second layer of (the mean of `H`, `H`), where `H` is the rectified first layer of (the mean of the node
  features, the node features).  A bias vector reshaped to one row is read back at its column.
-/
import proofs.«145076_j19061064859834_1_alg».proof.Proof.Gen.KernelIdeal.Frame
import proofs.«145076_j19061064859834_1_alg».proof.Proof.Region0
import proofs.«145076_j19061064859834_1_alg».proof.Proof.Region1
import proofs.«145076_j19061064859834_1_alg».proof.Proof.HostK
import Idealize.ShloMosaic.Lib.StableHlo.Run
import Idealize.ShloMosaic.Lib.Pipeline.Value

set_option maxRecDepth 16384

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- A vector reshaped to a single row, read at (0, q), is the vector at q. -/
theorem row_of_vec {n : Nat} {α : Type} (v : (⟨1, ![n]⟩ : Shape).Idx → α) (h : (⟨1, ![n]⟩ : Shape).ShapeCasts ⟨2, ![1, n]⟩)
    (q : Fin n) : shapeCast ⟨2, ![1, n]⟩ v h (ix2 0 q) = v (ix1 q) := by
  refine (shapeCast_addUnit_apply ![n] v h (ix2 0 q)).trans (congrArg v ?_)
  funext a
  match a with
  | ⟨0, _⟩ => rfl

/-- The hidden features: after the first call its result buffer holds the rectified first layer of what the call
    found. -/
theorem hidden_buf (c : Dev nD) : W2 m ρ c (Proc.devRef .tc main_v25) = Region0.result (V1 m ρ) c :=
  (W2_arr m ρ c 5).trans (Region0.final (V1 m ρ) c)

/-! ## What the second call finds -/

set_option maxHeartbeats 8000000 in
theorem agg2_eq (c : Dev nD) :
    (V3 m ρ c main_v37 : S50000x128.Idx → EReal)
      = mean128 (W2 m ρ c (Proc.devRef .tc main_v25)) (m ((c.tc : Thread nD τ).loc main_arg1)) := by
  show StableHlo.after hostOps1 (W2 m ρ c) (Proc.devRef .tc main_v37) = _
  after_results_simp
  rw [W2_of_ne m ρ c main_v1 (by decide), W2_of_ne m ρ c main_v3 (by decide), W2_of_ne m ρ c main_v11 (by decide),
    src_eq, dst_eq, recip_eq]
  rfl

set_option maxHeartbeats 8000000 in
theorem feat2_eq (c : Dev nD) : (V3 m ρ c main_v25 : S50000x128.Idx → EReal) = W2 m ρ c (Proc.devRef .tc main_v25) := by
  show StableHlo.after hostOps1 (W2 m ρ c) (Proc.devRef .tc main_v25) = _
  after_results_simp

set_option maxHeartbeats 8000000 in
theorem wl2_eq (c : Dev nD) : (V3 m ρ c main_arg5 : S128x64.Idx → EReal) = m ((c.tc : Thread nD τ).loc main_arg5) := by
  show StableHlo.after hostOps1 (W2 m ρ c) (Proc.devRef .tc main_arg5) = _
  after_results_simp
  rw [W2_of_ne m ρ c main_arg5 (by decide), wl2_w1]

set_option maxHeartbeats 8000000 in
theorem wr2_eq (c : Dev nD) : (V3 m ρ c main_arg6 : S128x64.Idx → EReal) = m ((c.tc : Thread nD τ).loc main_arg6) := by
  show StableHlo.after hostOps1 (W2 m ρ c) (Proc.devRef .tc main_arg6) = _
  after_results_simp
  rw [W2_of_ne m ρ c main_arg6 (by decide), wr2_w1]

set_option maxHeartbeats 8000000 in
theorem bias2_eq (c : Dev nD) :
    (V3 m ρ c main_v38 : S1x64.Idx → EReal) = shapeCast S1x64 (m ((c.tc : Thread nD τ).loc main_arg7)) shapeCasts_S64_S1x64 := by
  show StableHlo.after hostOps1 (W2 m ρ c) (Proc.devRef .tc main_v38) = _
  after_results_simp
  rw [W2_of_ne m ρ c main_arg7 (by decide), bias2_w1]
  rfl

/-! ## The result -/

/-- The hidden features as a function of the arguments. -/
def hiddenOf (x : FVec Ideal S50000x64 .f32) (e : (⟨S2x1600000, .i32⟩ : BufTy).Contents (Elt Ideal))
    (wl wr : FVec Ideal S64x128 .f32) (b : FVec Ideal S128 .f32) : FVec Ideal S50000x128 .f32 :=
  SageSpec.hidden (mean64 x e) x wl wr (fun q => b (ix1 q))

/-- The result as a function of the arguments. -/
def resultOf (x : FVec Ideal S50000x64 .f32) (e : (⟨S2x1600000, .i32⟩ : BufTy).Contents (Elt Ideal))
    (wl1 wr1 : FVec Ideal S64x128 .f32) (b1 : FVec Ideal S128 .f32) (wl2 wr2 : FVec Ideal S128x64 .f32) (b2 : FVec Ideal S64 .f32) :
    FVec Ideal S50000x64 .f32 :=
  SageSpec.dense2 (mean128 (hiddenOf x e wl1 wr1 b1) e) (hiddenOf x e wl1 wr1 b1) wl2 wr2 (fun q => b2 (ix1 q))

theorem hidden_value (c : Dev nD) :
    W2 m ρ c (Proc.devRef .tc main_v25)
      = hiddenOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [hidden_buf]
  unfold Region0.result hiddenOf
  rw [agg1_eq, feat1_eq, wl1_eq, wr1_eq, bias1_eq]
  exact congrArg (SageSpec.hidden _ _ _ _) (funext fun q => row_of_vec _ shapeCasts_S128_S1x128 q)

/-- The result buffer after the run. -/
theorem result_value (c : Dev nD) :
    (V4 m ρ c main_v39 : S50000x64.Idx → EReal)
      = resultOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine ((W4_arr m ρ c 5).trans (Region1.final (V3 m ρ) c)).trans ?_
  unfold Region1.result resultOf
  rw [agg2_eq, feat2_eq, wl2_eq, wr2_eq, bias2_eq, hidden_value]
  exact congrArg (SageSpec.dense2 _ _ _ _) (funext fun q => row_of_vec _ shapeCasts_S64_S1x64 q)

end Cert.KernelIdeal.HostSide

end
-- ==== Proof.MeanK.lean ====
/-
  The kernel's mean at an index.

  Entry (r, j) of the mean-aggregated features as the kernel's program forms them is the neighbour sum's entry
  (r, j) times `1 / max(deg(r), 1)`: the reciprocal column is broadcast along the feature axis, and the two scalar
  constants broadcast to every node are the word of `1.0`.
-/
import proofs.«145076_j19061064859834_1_alg».proof.Proof.HostK
import Idealize.ShloMosaic.Lib.Pipeline.Value
import Idealize.ShloMosaic.Lib.ValueIdx

set_option maxRecDepth 16384

noncomputable section

namespace Cert.KernelIdeal.HostSide

open Idealize.ShloMosaic Idealize.ShloMosaic.ValueIdx Cert.KernelIdeal Cert.KernelIdeal.Gen

/-- The reciprocal column at node r. -/
theorem recipDegree_apply (e : (⟨S2x1600000, .i32⟩ : BufTy).Contents (Elt Ideal)) (r : Fin 50000) :
    recipDegree e (ix2 r 0)
      = Ideal.div (Ideal.ofBits .f32 0x3F800000#32) (max (degree e (ix2 r 0)) (Ideal.ofBits .f32 0x3F800000#32)) := by
  have quot : ∀ (u v : FVec Ideal S50000x1 .f32) (i : S50000x1.Idx), Host.divf (F := Ideal) u v i = Ideal.div (u i) (v i) :=
    fun _ _ _ => rfl
  have one : broadcastInDim S50000x1 ![] bcast_S_S50000x1 (constant (F := Ideal) S_ .f32 0x3F800000#32) (ix2 r 0)
      = Ideal.ofBits .f32 0x3F800000#32 :=
    broadcastInDim_apply _ bcast_S_S50000x1 (constant (F := Ideal) S_ .f32 0x3F800000#32) (ix2 r 0) ix0 (fun a => a.elim0)
  unfold recipDegree
  rw [quot, maximumf_apply, one]

theorem mean64_apply (f : FVec Ideal S50000x64 .f32) (e : (⟨S2x1600000, .i32⟩ : BufTy).Contents (Elt Ideal)) (r : Fin 50000) (j : Fin 64) :
    mean64 f e (ix2 r j)
      = nbrSum64 f e (ix2 r j) * Ideal.div (Ideal.ofBits .f32 0x3F800000#32) (max (degree e (ix2 r 0)) (Ideal.ofBits .f32 0x3F800000#32)) := by
  unfold mean64
  rw [mulf_apply, broadcastInDim_apply _ bcast_S50000x1_S50000x64_0_1 (recipDegree e) (ix2 r j) (ix2 r 0) (fun a => by
    match a with
    | ⟨0, _⟩ => show r.val = if (50000 : Nat) = 1 then 0 else r.val; rw [if_neg (by decide)]
    | ⟨1, _⟩ => show 0 = if (1 : Nat) = 1 then 0 else j.val; rw [if_pos rfl]), recipDegree_apply]

theorem mean128_apply (f : FVec Ideal S50000x128 .f32) (e : (⟨S2x1600000, .i32⟩ : BufTy).Contents (Elt Ideal)) (r : Fin 50000) (j : Fin 128) :
    mean128 f e (ix2 r j)
      = nbrSum128 f e (ix2 r j) * Ideal.div (Ideal.ofBits .f32 0x3F800000#32) (max (degree e (ix2 r 0)) (Ideal.ofBits .f32 0x3F800000#32)) := by
  unfold mean128
  rw [mulf_apply, broadcastInDim_apply _ bcast_S50000x1_S50000x128_0_1 (recipDegree e) (ix2 r j) (ix2 r 0) (fun a => by
    match a with
    | ⟨0, _⟩ => show r.val = if (50000 : Nat) = 1 then 0 else r.val; rw [if_neg (by decide)]
    | ⟨1, _⟩ => show 0 = if (1 : Nat) = 1 then 0 else j.val; rw [if_pos rfl]), recipDegree_apply]

end Cert.KernelIdeal.HostSide

end
-- ==== Proof.MeanR.lean ====
/-
  The reference's mean at an index.

  Entry (r, j) of the reference's mean is the neighbour sum's entry (r, j) divided by `max(deg(r), 1)`: the clamped
  in-degree column is broadcast along the feature axis and the constant broadcast to every node is the word of `1.0`.
-/
import proofs.«145076_j19061064859834_1_alg».proof.Proof.Gen.ReferenceIdeal.Read
import Idealize.ShloMosaic.Lib.ValueIdx

noncomputable section

namespace Cert.ReferenceIdeal.RefValue

open Idealize.ShloMosaic Idealize.ShloMosaic.ValueIdx Cert.ReferenceIdeal Cert.ReferenceIdeal.Read

theorem node1 (i : S50000x64.Idx) : idx_main_v20 i = ix2 (i 0) 0 :=
  funext fun a => Fin.ext (by match a with | ⟨0, _⟩ => rfl | ⟨1, _⟩ => rfl)
theorem node2 (i : S50000x128.Idx) : idx_main_v49 i = ix2 (i 0) 0 :=
  funext fun a => Fin.ext (by match a with | ⟨0, _⟩ => rfl | ⟨1, _⟩ => rfl)

theorem mean1_apply (x0 : (⟨S50000x64, .f32⟩ : BufTy).Contents (Elt Ideal)) (x1 : (⟨S2x1600000, .i32⟩ : BufTy).Contents (Elt Ideal)) (i : S50000x64.Idx) :
    val_main_v21 (F := Ideal) x0 x1 i
      = Ideal.div (val_main_v13 (F := Ideal) x0 x1 i) (max (val_main_v17 (F := Ideal) x1 (ix2 (i 0) 0)) (Ideal.ofBits .f32 0x3F800000#32)) := by
  rw [val_main_v21_apply, val_main_v20_apply, val_main_v19_apply, val_main_v18_apply, val_main_cst_3_apply, node1]
  rfl

theorem mean2_apply (x0 : (⟨S50000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal)) (i : S50000x128.Idx) :
    val_main_v50 (F := Ideal) x0 x1 x2 x3 x4 i
      = Ideal.div (val_main_v42 (F := Ideal) x0 x1 x2 x3 x4 i) (max (val_main_v46 (F := Ideal) x1 (ix2 (i 0) 0)) (Ideal.ofBits .f32 0x3F800000#32)) := by
  rw [val_main_v50_apply, val_main_v49_apply, val_main_v48_apply, val_main_v47_apply, val_main_cst_9_apply, node2]
  rfl

end Cert.ReferenceIdeal.RefValue

end
-- ==== Proof.RefSide.lean ====
/-
  The reference, read against the specification.

  The reference forms the mean as the neighbour sum divided by `max(deg, 1)`, then applies, per layer, two matrix
  products on the host, their sum, the bias broadcast over the rows, and after the first layer the rectifier.  Read
  at an index each host product is the sum over the contracted axis, the broadcasts read their operand at the
  column, and the rectifier's constant is the zero word: the hidden features are `hidden` of the first mean and the
  result is `dense2` of the second mean and the hidden features.
-/
import proofs.«145076_j19061064859834_1_alg».proof.Proof.Gen.ReferenceIdeal.Read
import proofs.«145076_j19061064859834_1_alg».proof.Proof.SageSpec

noncomputable section

namespace Cert.ReferenceIdeal.RefValue

open Idealize.ShloMosaic Idealize.ShloMosaic.ValueIdx Cert.ReferenceIdeal Cert.ReferenceIdeal.Read
open scoped BigOperators

/-! ## The operand indices of the four products and of the two bias broadcasts, by coordinates -/

theorem lrow1 (i : S50000x128.Idx) (k : Fin 64) : lidx_main_v22 i k = ix2 (i 0) k :=
  funext fun a => Fin.ext (by match a with | ⟨0, _⟩ => rfl | ⟨1, _⟩ => rfl)
theorem rcol1 (i : S50000x128.Idx) (k : Fin 64) : ridx_main_v22 i k = ix2 k (i 1) :=
  funext fun a => Fin.ext (by match a with | ⟨0, _⟩ => rfl | ⟨1, _⟩ => rfl)
theorem lrow1' (i : S50000x128.Idx) (k : Fin 64) : lidx_main_v23 i k = ix2 (i 0) k :=
  funext fun a => Fin.ext (by match a with | ⟨0, _⟩ => rfl | ⟨1, _⟩ => rfl)
theorem rcol1' (i : S50000x128.Idx) (k : Fin 64) : ridx_main_v23 i k = ix2 k (i 1) :=
  funext fun a => Fin.ext (by match a with | ⟨0, _⟩ => rfl | ⟨1, _⟩ => rfl)
theorem bcol1 (i : S50000x128.Idx) : idx_main_v25 (idx_main_v26 i) = ix1 (i 1) :=
  funext fun a => Fin.ext (by match a with | ⟨0, _⟩ => rfl)
theorem lrow2 (i : S50000x64.Idx) (k : Fin 128) : lidx_main_v51 i k = ix2 (i 0) k :=
  funext fun a => Fin.ext (by match a with | ⟨0, _⟩ => rfl | ⟨1, _⟩ => rfl)
theorem rcol2 (i : S50000x64.Idx) (k : Fin 128) : ridx_main_v51 i k = ix2 k (i 1) :=
  funext fun a => Fin.ext (by match a with | ⟨0, _⟩ => rfl | ⟨1, _⟩ => rfl)
theorem lrow2' (i : S50000x64.Idx) (k : Fin 128) : lidx_main_v52 i k = ix2 (i 0) k :=
  funext fun a => Fin.ext (by match a with | ⟨0, _⟩ => rfl | ⟨1, _⟩ => rfl)
theorem rcol2' (i : S50000x64.Idx) (k : Fin 128) : ridx_main_v52 i k = ix2 k (i 1) :=
  funext fun a => Fin.ext (by match a with | ⟨0, _⟩ => rfl | ⟨1, _⟩ => rfl)
theorem bcol2 (i : S50000x64.Idx) : idx_main_v54 (idx_main_v55 i) = ix1 (i 1) :=
  funext fun a => Fin.ext (by match a with | ⟨0, _⟩ => rfl)

/-! ## The two layers -/

/-- The reference's hidden features are the rectified first layer of its mean, the node features, the first
    weights and the first bias. -/
theorem hidden_eq (x0 : (⟨S50000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal)) :
    val_main_v28 (F := Ideal) x0 x1 x2 x3 x4
      = SageSpec.hidden (val_main_v21 (F := Ideal) x0 x1) x0 x2 x3 (fun q => x4 (ix1 q)) := by
  funext i
  rw [val_main_v28_apply, val_main_v27_apply, val_main_v24_apply, val_main_v22_apply, val_main_v23_apply, val_main_v26_apply,
    val_main_v25_apply, val_main_call0_v0_apply, val_main_call0_cst_apply]
  simp only [lrow1, rcol1, lrow1', rcol1', bcol1, Ideal.addf_def, Ideal.maximumf_def, Ideal.ofBits_def, Ideal.ofBits_zero_f32]
  rfl

/-- The reference's result is the second layer of its second mean, its hidden features, the second weights and the
    second bias. -/
theorem out_eq (x0 : (⟨S50000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    val_main_v56 (F := Ideal) x0 x1 x2 x3 x4 x5 x6 x7
      = SageSpec.dense2 (val_main_v50 (F := Ideal) x0 x1 x2 x3 x4) (val_main_v28 (F := Ideal) x0 x1 x2 x3 x4) x5 x6 (fun q => x7 (ix1 q)) := by
  funext i
  rw [val_main_v56_apply, val_main_v53_apply, val_main_v51_apply, val_main_v52_apply, val_main_v55_apply, val_main_v54_apply]
  simp only [lrow2, rcol2, lrow2', rcol2', bcol2, Ideal.addf_def]
  rfl

end Cert.ReferenceIdeal.RefValue

end
-- ==== Proof.Bridge.lean ====
/-
  The two programs compute one function.

  Both apply the same gather and the same scatter-add to the same index columns built from the edge list, so the
  neighbour sums and the in-degree are the same arrays.  The kernel's mean is the sum times `1 / max(deg, 1)`, the
  reference's the sum divided by `max(deg, 1)`; these agree entry by entry because the divisor is never zero.  With
  the means equal the hidden features are equal (both are the rectified first layer), hence the second neighbour
  sums, the second means, and the results (both are the second layer).
-/
import proofs.«145076_j19061064859834_1_alg».proof.Proof.HostK2
import proofs.«145076_j19061064859834_1_alg».proof.Proof.MeanK
import proofs.«145076_j19061064859834_1_alg».proof.Proof.MeanR
import proofs.«145076_j19061064859834_1_alg».proof.Proof.RefSide
import proofs.«145076_j19061064859834_1_alg».proof.Proof.SageSpec

set_option maxRecDepth 16384

noncomputable section

namespace Cert.Bridge

open Idealize.ShloMosaic Idealize.ShloMosaic.ValueIdx
open Cert.KernelIdeal.HostSide Cert.ReferenceIdeal.Read

/-- The first neighbour sum is the same array in both programs. -/
theorem nbr64_eq (x : FVec Ideal Cert.KernelIdeal.S50000x64 .f32) (e : (⟨Cert.KernelIdeal.S2x1600000, .i32⟩ : BufTy).Contents (Elt Ideal)) :
    nbrSum64 x e = val_main_v13 (F := Ideal) x e := rfl

/-- The second neighbour sum, of any hidden features, likewise. -/
theorem nbr128_eq (x : FVec Ideal Cert.KernelIdeal.S50000x64 .f32) (e : (⟨Cert.KernelIdeal.S2x1600000, .i32⟩ : BufTy).Contents (Elt Ideal))
    (wl wr : FVec Ideal Cert.KernelIdeal.S64x128 .f32) (b : FVec Ideal Cert.KernelIdeal.S128 .f32) :
    nbrSum128 (val_main_v28 (F := Ideal) x e wl wr b) e = val_main_v42 (F := Ideal) x e wl wr b := rfl

/-- The in-degree is the same array in both programs, where the reference computes it for the first layer … -/
theorem degree_eq1 (e : (⟨Cert.KernelIdeal.S2x1600000, .i32⟩ : BufTy).Contents (Elt Ideal)) :
    degree e = val_main_v17 (F := Ideal) e := rfl

/-- … and where it computes it again for the second. -/
theorem degree_eq2 (e : (⟨Cert.KernelIdeal.S2x1600000, .i32⟩ : BufTy).Contents (Elt Ideal)) :
    degree e = val_main_v46 (F := Ideal) e := rfl

/-- The first means agree: the sum times the reciprocal of `max(deg, 1)` is the sum divided by it. -/
theorem mean64_eq (x : FVec Ideal Cert.KernelIdeal.S50000x64 .f32) (e : (⟨Cert.KernelIdeal.S2x1600000, .i32⟩ : BufTy).Contents (Elt Ideal)) :
    mean64 x e = val_main_v21 (F := Ideal) x e := by
  funext i
  obtain ⟨r, j, rfl⟩ : ∃ (r : Fin 50000) (j : Fin 64), i = ix2 r j := ⟨i 0, i 1, eq_ix2 i⟩
  rw [mean64_apply, Cert.ReferenceIdeal.RefValue.mean1_apply, ← nbr64_eq, ← degree_eq1, SageSpec.word_one]
  exact SageSpec.mul_recip_eq_div _ _

/-- The second means agree, at the reference's hidden features. -/
theorem mean128_eq (x : FVec Ideal Cert.KernelIdeal.S50000x64 .f32) (e : (⟨Cert.KernelIdeal.S2x1600000, .i32⟩ : BufTy).Contents (Elt Ideal))
    (wl wr : FVec Ideal Cert.KernelIdeal.S64x128 .f32) (b : FVec Ideal Cert.KernelIdeal.S128 .f32) :
    mean128 (val_main_v28 (F := Ideal) x e wl wr b) e = val_main_v50 (F := Ideal) x e wl wr b := by
  funext i
  obtain ⟨r, j, rfl⟩ : ∃ (r : Fin 50000) (j : Fin 128), i = ix2 r j := ⟨i 0, i 1, eq_ix2 i⟩
  rw [mean128_apply, Cert.ReferenceIdeal.RefValue.mean2_apply, ← nbr128_eq, ← degree_eq2, SageSpec.word_one]
  exact SageSpec.mul_recip_eq_div _ _

/-- The hidden features agree. -/
theorem hidden_eq (x : FVec Ideal Cert.KernelIdeal.S50000x64 .f32) (e : (⟨Cert.KernelIdeal.S2x1600000, .i32⟩ : BufTy).Contents (Elt Ideal))
    (wl wr : FVec Ideal Cert.KernelIdeal.S64x128 .f32) (b : FVec Ideal Cert.KernelIdeal.S128 .f32) :
    hiddenOf x e wl wr b = val_main_v28 (F := Ideal) x e wl wr b := by
  rw [Cert.ReferenceIdeal.RefValue.hidden_eq, ← mean64_eq]
  rfl

/-- The results agree. -/
theorem result_eq (x : FVec Ideal Cert.KernelIdeal.S50000x64 .f32) (e : (⟨Cert.KernelIdeal.S2x1600000, .i32⟩ : BufTy).Contents (Elt Ideal))
    (wl1 wr1 : FVec Ideal Cert.KernelIdeal.S64x128 .f32) (b1 : FVec Ideal Cert.KernelIdeal.S128 .f32)
    (wl2 wr2 : FVec Ideal Cert.KernelIdeal.S128x64 .f32) (b2 : FVec Ideal Cert.KernelIdeal.S64 .f32) :
    resultOf x e wl1 wr1 b1 wl2 wr2 b2 = val_main_v56 (F := Ideal) x e wl1 wr1 b1 wl2 wr2 b2 := by
  rw [Cert.ReferenceIdeal.RefValue.out_eq]
  unfold resultOf
  rw [hidden_eq, mean128_eq]

end Cert.Bridge

end
-- ==== Proof.lean ====
/-
  A two-layer mean-aggregation graph network (50000 nodes, 1.6 million edges, features 64 → 128 → 64): the kernel
  against its reference, on the extended reals.

  Each layer takes, for every node, the mean of its in-neighbours' feature rows, multiplies it by one weight
  matrix, adds the node's own row times a second weight matrix and a bias; the first layer is followed by
  `max(·, 0)`.  The kernel forms the neighbour sums and the in-degree on the host, multiplies the sums by
  `1 / max(deg, 1)`, and runs each layer's dense part as one tiled kernel launch over ten blocks of 5000 rows; the
  reference divides the sums by `max(deg, 1)` and uses whole-array matrix products.

  On the extended reals a float format change is the identity, a tiled matrix product into a zero accumulator and
  a whole one are the same sums, and `s · (1 / d) = s / d` whenever `d ≠ 0`; here `d = max(deg, 1) ≥ 1`.  So both
  programs end with the same array, whatever the inputs: the precondition is not used.  The gather and the
  scatter-add over the edge list are never opened; they occur as the same functions of the same index columns
  in both programs.

  The three frame claims are the generated frames (the reference's is its run with the result dropped); the
  idealized kernel is the kernel's own text read on the extended reals, so the preservation claim is `True`.
-/
import proofs.«145076_j19061064859834_1_alg».proof.Defs
import proofs.«145076_j19061064859834_1_alg».proof.Proof.Gen.Kernel
import proofs.«145076_j19061064859834_1_alg».proof.Proof.Gen.Kernel.Frame
import proofs.«145076_j19061064859834_1_alg».proof.Proof.Gen.KernelIdeal
import proofs.«145076_j19061064859834_1_alg».proof.Proof.Gen.KernelIdeal.Frame
import proofs.«145076_j19061064859834_1_alg».proof.Proof.Gen.ReferenceIdeal
import proofs.«145076_j19061064859834_1_alg».proof.Proof.Gen.ReferenceIdeal.Run
import proofs.«145076_j19061064859834_1_alg».proof.Proof.Gen.ReferenceIdeal.Read
import proofs.«145076_j19061064859834_1_alg».proof.Proof.Gen.Pre_finite_inputs
import proofs.«145076_j19061064859834_1_alg».proof.Proof.KernelRun
import proofs.«145076_j19061064859834_1_alg».proof.Proof.HostK2
import proofs.«145076_j19061064859834_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the second layer of the hidden features and their mean, the hidden features
    being the rectified first layer of the node features and their mean: the kernel by its two calls' blocks read
    back through the host operations around them, the reference by its run read an operation at a time; the two
    forms of the mean agree. -/
theorem algebraic : Cert.algebraic_KernelIdeal_ReferenceIdeal := by
  intro m ρ m' ρ' _ hagree
  refine ⟨fun c => Cert.KernelIdeal.HostSide.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.result_value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v56_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
